-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x1024 : Shape := ⟨3, ![64, 256, 1024]⟩
abbrev S1024x1024 : Shape := ⟨2, ![1024, 1024]⟩
abbrev S1024 : Shape := ⟨1, ![1024]⟩
abbrev S64x1024x1024 : Shape := ⟨3, ![64, 1024, 1024]⟩
abbrev S64x1024 : Shape := ⟨2, ![64, 1024]⟩
abbrev S_ : Shape := ⟨0, ![]⟩

class Facts : Prop where
  bcast_S_S64x256x1024 : S_.BroadcastsInDim S64x256x1024 (![] : Fin 0 → Fin S64x256x1024.rank)
  reducesTo_S64x256x1024_S_d0_1_2 : S64x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_arg4 : FVec F S1024 .f32) (main_arg5 : FVec F S64x1024x1024 .f32) (main_arg6 : FVec F S64x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S64x1024x1024 .f32 := Host.absf main_arg5
  let main_cst_8 : FVec F S_ .f32 := constant S_ .f32 0x7F800000#32
  let main_v25 : FVec F S64x1024x1024 .f32 := broadcastInDim S64x1024x1024 ![] bcast_S_S64x1024x1024 main_cst_8
  let main_v26 : IVec S64x1024x1024 1 := cmpf .olt main_v24 main_v25
  let main_c_9 : IVec S_ 1 := constantI S_ 1 1#1
  let main_v27 : IVec S_ 1 := (fun x v => Host.reduce IntOp.andi x v reducesTo_S64x1024x1024_S_d0_1_2 h_S_) main_v26 main_c_9
  let main_v28 : IVec S_ 1 := andi main_v23 main_v27
  let main_v29 : FVec F S64x1024 .f32 := Host.absf main_arg6
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  main_v33

def fn {F : FTy → Type} [FloatOps F] (main_arg0 : FVec F S64x256x1024 .f32) (main_arg1 : FVec F S1024x1024 .f32) (main_arg2 : FVec F S1024x1024 .f32) (main_arg3 : FVec F S1024 .f32) (main_arg4 : FVec F S1024 .f32) (main_arg5 : FVec F S64x1024x1024 .f32) (main_arg6 : FVec F S64x1024 .f32) : IVec S_ 1 :=
  let main_v0 : FVec F S64x256x1024 .f32 := Host.absf main_arg0
  let main_cst : FVec F S_ .f32 := constant S_ .f32 0x7F800000#32
  let main_v1 : FVec F S64x256x1024 .f32 := broadcastInDim S64x256x1024 ![] bcast_S_S64x256x1024 main_cst
  let main_v2 : IVec S64x256x1024 1 := cmpf .olt main_v0 main_v1
  let main_c : IVec S_ 1 := constantI S_ 1 1#1
  let main_v3 : IVec S_ 1 := (fun x v => Host.reduce IntOp.andi x v reducesTo_S64x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== Kernel.lean ====
abbrev S64x256x1024 : Shape := ⟨3, ![64, 256, 1024]⟩
abbrev S1024x1024 : Shape := ⟨2, ![1024, 1024]⟩
abbrev S1024 : Shape := ⟨1, ![1024]⟩
abbrev S64x1024x1024 : Shape := ⟨3, ![64, 1024, 1024]⟩
abbrev S64x1024 : Shape := ⟨2, ![64, 1024]⟩
abbrev S64x1x1024 : Shape := ⟨3, ![64, 1, 1024]⟩
abbrev S2x256x1024 : Shape := ⟨3, ![2, 256, 1024]⟩
abbrev S2x1024x1024 : Shape := ⟨3, ![2, 1024, 1024]⟩
abbrev S2x1x1024 : Shape := ⟨3, ![2, 1, 1024]⟩
abbrev S1x1024x1024 : Shape := ⟨3, ![1, 1024, 1024]⟩
abbrev S1x1x1024 : Shape := ⟨3, ![1, 1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S64x256x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S64x1024x1024, .f32⟩
  | .hbm, ⟨6, _⟩ => ⟨S64x1024, .f32⟩
  | .hbm, ⟨7, _⟩ => ⟨S64x1x1024, .f32⟩
  | .hbm, ⟨8, _⟩ => ⟨S64x256x1024, .f32⟩
  | .local _ .vmem, ⟨0, _⟩ => ⟨S2x256x1024, .f32⟩
  | .local _ .vmem, ⟨1, _⟩ => ⟨S2x256x1024, .f32⟩
  | .local _ .vmem, ⟨2, _⟩ => ⟨S1024x1024, .f32⟩
  | .local _ .vmem, ⟨3, _⟩ => ⟨S1024x1024, .f32⟩
  | .local _ .vmem, ⟨4, _⟩ => ⟨S2x1024x1024, .f32⟩
  | .local _ .vmem, ⟨5, _⟩ => ⟨S2x1024x1024, .f32⟩
  | .local _ .vmem, ⟨6, _⟩ => ⟨S1024, .f32⟩
  | .local _ .vmem, ⟨7, _⟩ => ⟨S1024, .f32⟩
  | .local _ .vmem, ⟨8, _⟩ => ⟨S2x1x1024, .f32⟩
  | .local _ .vmem, ⟨9, _⟩ => ⟨S2x1x1024, .f32⟩
  | .local _ .vmem, ⟨10, _⟩ => ⟨S2x256x1024, .f32⟩
  | .local _ .vmem, ⟨11, _⟩ => ⟨S2x256x1024, .f32⟩
  | _, _ => ⟨S64x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x1024_S64x1x1024 : S64x1024.ShapeCasts S64x1x1024
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  inb_S2x1024x1024_S2x1024x1024_0_0_0 : ∀ a, (![0, 0, 0] : Fin 3 → Nat) a + S2x1024x1024.size a ≤ S2x1024x1024.size a
  h_S2x1024x1024 : 0 < S2x1024x1024.numel
  broadcasts_S1x1024x1024_S2x1024x1024 : S1x1024x1024.Broadcasts S2x1024x1024
  inb_S1024_S1024_0 : ∀ a, (![0] : Fin 1 → Nat) a + S1024.size a ≤ S1024.size a
  h_S1024 : 0 < S1024.numel
  shapeCasts_S1024_S1x1x1024 : S1024.ShapeCasts S1x1x1024
  inb_S2x1x1024_S2x1x1024_0_0_0 : ∀ a, (![0, 0, 0] : Fin 3 → Nat) a + S2x1x1024.size a ≤ S2x1x1024.size a
  h_S2x1x1024 : 0 < S2x1x1024.numel
  shapeCasts_S2x1x1024_S2x1x1024 : S2x1x1024.ShapeCasts S2x1x1024
  broadcasts_S1x1x1024_S2x1x1024 : S1x1x1024.Broadcasts S2x1x1024
  inb_S2x256x1024_S2x256x1024_0_0_0 : ∀ a, (![0, 0, 0] : Fin 3 → Nat) a + S2x256x1024.size a ≤ S2x256x1024.size a
  h_S2x256x1024 : 0 < S2x256x1024.numel
  broadcasts_S2x1x1024_S2x256x1024 : S2x1x1024.Broadcasts S2x256x1024
  dot_S2x256x1024_S2x1024x1024_S2x256x1024_2_1_1_2_0_0_wf : DotDims.WF S2x256x1024 S2x1024x1024 S2x256x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x1024.size a ≤ S64x256x1024.size a
  hwx0_0 : ∀ i : grid0.Coords, EltTy.bits .f32 = 32 ∨ (Rect.block (s := S64x256x1024) S2x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x1024.size a ≤ S64x1024x1024.size a
  hwx0_3 : ∀ i : grid0.Coords, EltTy.bits .f32 = 32 ∨ (Rect.block (s := S64x1024x1024) S2x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1x1024.size a ≤ S64x1x1024.size a
  hwx0_6 : ∀ i : grid0.Coords, EltTy.bits .f32 = 32 ∨ (Rect.block (s := S64x1x1024) S2x1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x256x1024.size a ≤ S64x256x1024.size a
  hwx0_7 : ∀ i : grid0.Coords, EltTy.bits .f32 = 32 ∨ (Rect.block (s := S64x256x1024) S2x256x1024.size (cc0_transform_7 i) (hinb0_7 i)).WholeWords (EltTy.packing .f32)

variable [Facts₀]

def dot_S2x256x1024_S2x1024x1024_S2x256x1024_2_1_1_2_0_0 : DotDims S2x256x1024 S2x1024x1024 S2x256x1024 where
  lhsContracting := [2]
  rhsContracting := [1]
  lhsNonContracting := [1]
  rhsNonContracting := [2]
  lhsBatch := [0]
  rhsBatch := [0]
  wf := dot_S2x256x1024_S2x1024x1024_S2x256x1024_2_1_1_2_0_0_wf

abbrev win0_0 : Pipeline.Window sig grid0 :=
  Pipeline.Window.ofSpec (Memref.whole main_arg0) S2x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S2x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S2x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x256x1024 : Shape := ⟨3, ![64, 256, 1024]⟩
abbrev S1024x1024 : Shape := ⟨2, ![1024, 1024]⟩
abbrev S1024 : Shape := ⟨1, ![1024]⟩
abbrev S64x1024x1024 : Shape := ⟨3, ![64, 1024, 1024]⟩
abbrev S64x1024 : Shape := ⟨2, ![64, 1024]⟩
abbrev S_ : Shape := ⟨0, ![]⟩
abbrev S1x1024x1024 : Shape := ⟨3, ![1, 1024, 1024]⟩
abbrev S1x1024 : Shape := ⟨2, ![1, 1024]⟩
abbrev S64x1x1024 : Shape := ⟨3, ![64, 1, 1024]⟩

abbrev nBuf : Space → Nat
  | .hbm => 31
  | .vmem => 0
  | .smem => 0
  | _ => 0

abbrev bufTy : (tb : Table) → Fin (tcTables nBuf tb) → BufTy
  | .hbm, ⟨0, _⟩ => ⟨S64x256x1024, .f32⟩
  | .hbm, ⟨1, _⟩ => ⟨S1024x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S64x1024x1024, .f32⟩
  | .hbm, ⟨6, _⟩ => ⟨S64x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1x1024x1024, .f32⟩
  | .hbm, ⟨16, _⟩ => ⟨S1x1024x1024, .f32⟩
  | .hbm, ⟨17, _⟩ => ⟨S64x1024x1024, .f32⟩
  | .hbm, ⟨18, _⟩ => ⟨S64x1024x1024, .f32⟩
  | .hbm, ⟨19, _⟩ => ⟨S64x1024x1024, .f32⟩
  | .hbm, ⟨20, _⟩ => ⟨S64x1024x1024, .f32⟩
  | .hbm, ⟨21, _⟩ => ⟨S1x1024, .f32⟩
  | .hbm, ⟨22, _⟩ => ⟨S1x1024, .f32⟩
  | .hbm, ⟨23, _⟩ => ⟨S64x1024, .f32⟩
  | .hbm, ⟨24, _⟩ => ⟨S64x1024, .f32⟩
  | .hbm, ⟨25, _⟩ => ⟨S64x1024, .f32⟩
  | .hbm, ⟨26, _⟩ => ⟨S64x1024, .f32⟩
  | .hbm, ⟨27, _⟩ => ⟨S64x256x1024, .f32⟩
  | .hbm, ⟨28, _⟩ => ⟨S64x1x1024, .f32⟩
  | .hbm, ⟨29, _⟩ => ⟨S64x256x1024, .f32⟩
  | .hbm, ⟨30, _⟩ => ⟨S64x256x1024, .f32⟩
  | _, _ => ⟨S64x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S1024 : S_.BroadcastsInDim S1024 (![] : Fin 0 → Fin S1024.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  bcast_S64x1024_S64x1x1024_0_2 : S64x1024.BroadcastsInDim S64x1x1024 (![0, 2] : Fin 2 → Fin S64x1x1024.rank)
  bcast_S64x1x1024_S64x256x1024_0_1_2 : S64x1x1024.BroadcastsInDim S64x256x1024 (![0, 1, 2] : Fin 3 → Fin S64x256x1024.rank)
  dot_S64x256x1024_S64x1024x1024_S64x256x1024_2_1_1_2_0_0_wf : DotDims.WF S64x256x1024 S64x1024x1024 S64x256x1024 [2] [1] [1] [2] [0] [0]

variable [Facts₀]

def dot_S64x256x1024_S64x1024x1024_S64x256x1024_2_1_1_2_0_0 : DotDims S64x256x1024 S64x1024x1024 S64x256x1024 where
  lhsContracting := [2]
  rhsContracting := [1]
  lhsNonContracting := [1]
  rhsNonContracting := [2]
  lhsBatch := [0]
  rhsBatch := [0]
  wf := dot_S64x256x1024_S64x1024x1024_S64x256x1024_2_1_1_2_0_0_wf

class Facts : Prop extends Facts₀ where

variable [Facts]
-- ==== Proof.Spec.lean ====
/-
  The sampled linear layer, as one function of its seven argument arrays.

  For sample `s`, row `r` and output column `o` the result is
      Σ_k x[s, r, k] · (μ[k, o] + exp(½ · λ[k, o]) · ε[s, k, o])  +  (β[o] + exp(½ · γ[o]) · δ[s, o]),
  the matrix product of the sample's inputs with the sample's reparameterized weights (mean plus standard
  deviation times noise, the standard deviation the exponential of half the log-variance) plus the sample's
  reparameterized bias. Every operation is the extended reals' own; the constant ½ is kept as the float word both
  programs print, so its value is never needed.
-/
import Idealize.ShloMosaic.PureOps.Ideal
import Idealize.ShloMosaic.Lib.ValueIdx

noncomputable section

open scoped BigOperators

namespace Cert.SampledLayer

open Idealize.ShloMosaic Idealize.ShloMosaic.ValueIdx

/-- The inputs and the result: 64 samples of 256 rows by 1024 features. -/
abbrev SAct : Shape := ⟨3, ![64, 256, 1024]⟩
/-- The weight means and log-variances: 1024 by 1024. -/
abbrev SWt : Shape := ⟨2, ![1024, 1024]⟩
/-- The bias means and log-variances: 1024. -/
abbrev SBias : Shape := ⟨1, ![1024]⟩
/-- The weight noise: one 1024 by 1024 matrix per sample. -/
abbrev SWtNoise : Shape := ⟨3, ![64, 1024, 1024]⟩
/-- The bias noise: one vector of 1024 per sample. -/
abbrev SBiasNoise : Shape := ⟨2, ![64, 1024]⟩

/-- The constant one half, as the float word both programs print. -/
def half : EReal := Ideal.ofBits .f32 0x3F000000#32

/-- Sample `s`'s weight at `(k, o)`: the mean plus the standard deviation times the sample's noise. -/
def weightAt (wmu wlv : SWt.Idx → EReal) (weps : SWtNoise.Idx → EReal) (s : Fin 64) (k o : Fin 1024) : EReal :=
  wmu (ix2 k o) + Ideal.exp (half * wlv (ix2 k o)) * weps (ix3 s k o)

/-- Sample `s`'s bias at `o`: the mean plus the standard deviation times the sample's noise. -/
def biasAt (bmu blv : SBias.Idx → EReal) (beps : SBiasNoise.Idx → EReal) (s : Fin 64) (o : Fin 1024) : EReal :=
  bmu (ix1 o) + Ideal.exp (half * blv (ix1 o)) * beps (ix2 s o)

/-- The layer's result at sample `s`, row `r`, column `o`. -/
def layerAt (x : SAct.Idx → EReal) (wmu wlv : SWt.Idx → EReal) (bmu blv : SBias.Idx → EReal)
    (weps : SWtNoise.Idx → EReal) (beps : SBiasNoise.Idx → EReal) (s : Fin 64) (r : Fin 256) (o : Fin 1024) : EReal :=
  (∑ k : Fin 1024, x (ix3 s r k) * weightAt wmu wlv weps s k o) + biasAt bmu blv beps s o

/-- The layer's result array. -/
def layer (x : SAct.Idx → EReal) (wmu wlv : SWt.Idx → EReal) (bmu blv : SBias.Idx → EReal)
    (weps : SWtNoise.Idx → EReal) (beps : SBiasNoise.Idx → EReal) : SAct.Idx → EReal :=
  fun i => layerAt x wmu wlv bmu blv weps beps (i 0) (i 1) (i 2)

/-- The result array read at an index given by its coordinates. -/
theorem layer_ix3 (x : SAct.Idx → EReal) (wmu wlv : SWt.Idx → EReal) (bmu blv : SBias.Idx → EReal)
    (weps : SWtNoise.Idx → EReal) (beps : SBiasNoise.Idx → EReal) (s : Fin 64) (r : Fin 256) (o : Fin 1024) :
    layer x wmu wlv bmu blv weps beps (ix3 s r o) = layerAt x wmu wlv bmu blv weps beps s r o := rfl

end Cert.SampledLayer

end
-- ==== Proof.LibRank3Layout.lean ====
/-
  Rank-3 layout operations read at an index given by its coordinates: a broadcast along a leading or a middle unit
  axis, and the cast of a vector to a rank-3 shape with two leading unit axes. Each is the library's general lemma
  (`broadcastTo_apply`, `shapeCast_apply`) with the operand's index written out and the per-axis arithmetic discharged,
  so that it applies to a printed operation at `ix3 …` by unification. Generic in the extents.
-/
import Idealize.ShloMosaic.Lib.Pipeline.Value
import Idealize.ShloMosaic.Lib.ValueIdx

namespace Idealize.ShloMosaic.ValueIdx

open Idealize.ShloMosaic

variable {α : Type}

/-- ONE MATRIX BROADCAST over a leading axis, [1,b,c] → [a,b,c]: at `(p, q, r)` it reads the matrix at `(0, q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- ONE ROW PER LEADING INDEX BROADCAST over a middle axis, [a,1,c] → [a,b,c]: at `(p, q, r)` it reads `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A VECTOR CAST to two leading unit axes, [a] → [1,1,a]: at `(u, w, i)` it reads the vector at `i`. -/
theorem shapeCast_a_11a_apply {a : ℕ} (x : (⟨1, ![a]⟩ : Shape).Idx → α)
    (h : (⟨1, ![a]⟩ : Shape).ShapeCasts ⟨3, ![1, 1, a]⟩) (u w : Fin 1) (i : Fin a) :
    shapeCast ⟨3, ![1, 1, a]⟩ x h (ix3 u w i) = x (ix1 i) :=
  shapeCast_apply x h _ _ (by
    have hu : u.val = 0 := by omega
    have hw : w.val = 0 := by omega
    rw [Shape.rowMajor_val_three, Shape.rowMajor_val_one]
    show i.val = (u.val * 1 + w.val) * a + i.val
    rw [hu, hw]
    simp)

end Idealize.ShloMosaic.ValueIdx
-- ==== Proof.Payload.lean ====
/-
  The kernel body's stored value, read at one element.

  At a grid point the body holds two samples: it loads the two samples' inputs `[2, 256, 1024]`, weight noise
  `[2, 1024, 1024]` and bias noise `[2, 1, 1024]`, and the shared means and log-variances. It forms both samples'
  weights (the mean and the standard deviation broadcast over the sample axis), multiplies each sample's inputs by its
  own weights in one batched product into a zero accumulator, and adds each sample's bias broadcast over the rows. At
  `(b, r, c)` — sample `b` of the pair, row `r`, column `c` — that is the sum over `k` of the input at `(b, r, k)` times
  the weight at `(b, k, c)`, plus the bias at `(b, c)`.
-/
import proofs.«171357_j37752762532123_2_alg».proof.Proof.Gen.KernelIdeal.Skeleton
import proofs.«171357_j37752762532123_2_alg».proof.Proof.Spec
import proofs.«171357_j37752762532123_2_alg».proof.Proof.LibRank3Layout
import Idealize.ShloMosaic.Lib.ValueLayout
import Idealize.ShloMosaic.PureOps.Ideal.Laws

noncomputable section

open scoped BigOperators

namespace Cert.SampledLayer.Body

open Cert.KernelIdeal Cert.KernelIdeal.Gen Idealize.ShloMosaic Idealize.ShloMosaic.ValueIdx Cert.SampledLayer

/-! ## The batched product at an index -/

/-- The left operand's sample coordinate is the result's. -/
theorem lhs_0 (i : S2x256x1024.Idx) (q : dot_S2x256x1024_S2x1024x1024_S2x256x1024_2_1_1_2_0_0.contr.Idx) :
    (dot_S2x256x1024_S2x1024x1024_S2x256x1024_2_1_1_2_0_0.lhsIdx i q 0).val = (i 0).val := by
  unfold DotDims.lhsIdx
  rw [dif_pos (show (0 : Fin S2x256x1024.rank) ∈ dot_S2x256x1024_S2x1024x1024_S2x256x1024_2_1_1_2_0_0.lhsBatch by decide)]
  rfl
/-- Its row coordinate is the result's. -/
theorem lhs_1 (i : S2x256x1024.Idx) (q : dot_S2x256x1024_S2x1024x1024_S2x256x1024_2_1_1_2_0_0.contr.Idx) :
    (dot_S2x256x1024_S2x1024x1024_S2x256x1024_2_1_1_2_0_0.lhsIdx i q 1).val = (i 1).val := by
  unfold DotDims.lhsIdx
  rw [dif_neg (show ¬(1 : Fin S2x256x1024.rank) ∈ dot_S2x256x1024_S2x1024x1024_S2x256x1024_2_1_1_2_0_0.lhsBatch by decide), dif_pos (show (1 : Fin S2x256x1024.rank) ∈ dot_S2x256x1024_S2x1024x1024_S2x256x1024_2_1_1_2_0_0.lhsNonContracting by decide)]
  rfl
/-- Its last coordinate is the contraction position. -/
theorem lhs_2 (i : S2x256x1024.Idx) (q : dot_S2x256x1024_S2x1024x1024_S2x256x1024_2_1_1_2_0_0.contr.Idx) :
    (dot_S2x256x1024_S2x1024x1024_S2x256x1024_2_1_1_2_0_0.lhsIdx i q 2).val = (q ⟨0, by decide⟩).val :=
  dot_S2x256x1024_S2x1024x1024_S2x256x1024_2_1_1_2_0_0.lhsIdx_val_of_single rfl i q
/-- The right operand's sample coordinate is the result's. -/
theorem rhs_0 (i : S2x256x1024.Idx) (q : dot_S2x256x1024_S2x1024x1024_S2x256x1024_2_1_1_2_0_0.contr.Idx) :
    (dot_S2x256x1024_S2x1024x1024_S2x256x1024_2_1_1_2_0_0.rhsIdx i q 0).val = (i 0).val := by
  unfold DotDims.rhsIdx
  rw [dif_pos (show (0 : Fin S2x1024x1024.rank) ∈ dot_S2x256x1024_S2x1024x1024_S2x256x1024_2_1_1_2_0_0.rhsBatch by decide)]
  rfl
/-- Its middle coordinate is the contraction position. -/
theorem rhs_1 (i : S2x256x1024.Idx) (q : dot_S2x256x1024_S2x1024x1024_S2x256x1024_2_1_1_2_0_0.contr.Idx) :
    (dot_S2x256x1024_S2x1024x1024_S2x256x1024_2_1_1_2_0_0.rhsIdx i q 1).val = (q ⟨0, by decide⟩).val :=
  dot_S2x256x1024_S2x1024x1024_S2x256x1024_2_1_1_2_0_0.rhsIdx_val_of_single rfl i q
/-- Its column coordinate is the result's. -/
theorem rhs_2 (i : S2x256x1024.Idx) (q : dot_S2x256x1024_S2x1024x1024_S2x256x1024_2_1_1_2_0_0.contr.Idx) :
    (dot_S2x256x1024_S2x1024x1024_S2x256x1024_2_1_1_2_0_0.rhsIdx i q 2).val = (i 2).val := by
  unfold DotDims.rhsIdx
  rw [dif_neg (show ¬(2 : Fin S2x1024x1024.rank) ∈ dot_S2x256x1024_S2x1024x1024_S2x256x1024_2_1_1_2_0_0.rhsBatch by decide), dif_pos (show (2 : Fin S2x1024x1024.rank) ∈ dot_S2x256x1024_S2x1024x1024_S2x256x1024_2_1_1_2_0_0.rhsNonContracting by decide)]
  rfl

/-- THE BATCHED PRODUCT into a zero accumulator, at `(b, r, c)`: the sum over `k` of the left operand at `(b, r, k)`
    times the right operand at `(b, k, c)` — each sample's inputs meet that sample's weights only. -/
theorem product_apply (X : FVec Ideal S2x256x1024 .f32) (W : FVec Ideal S2x1024x1024 .f32)
    (b : Fin 2) (r : Fin 256) (c : Fin 1024) :
    matmul dot_S2x256x1024_S2x1024x1024_S2x256x1024_2_1_1_2_0_0 (some .fp32) X W
        (constant (F := Ideal) S2x256x1024 .f32 0x00000000#32) (ix3 b r c)
      = ∑ k : Fin 1024, X (ix3 b r k) * W (ix3 b k c) := by
  refine (Ideal.matmul_constant_zero_apply _ _ X W (ix3 b r c)).trans ?_
  rw [← Equiv.sum_comp (ValueIdx.contrEquiv1 dot_S2x256x1024_S2x1024x1024_S2x256x1024_2_1_1_2_0_0 1024 rfl rfl).symm]
  refine Finset.sum_congr rfl fun k _ => ?_
  have hk := ValueIdx.contrEquiv1_symm_val dot_S2x256x1024_S2x1024x1024_S2x256x1024_2_1_1_2_0_0 1024 rfl rfl k
  have el : dot_S2x256x1024_S2x1024x1024_S2x256x1024_2_1_1_2_0_0.lhsIdx (ix3 b r c) ((ValueIdx.contrEquiv1 dot_S2x256x1024_S2x1024x1024_S2x256x1024_2_1_1_2_0_0 1024 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S2x256x1024_S2x1024x1024_S2x256x1024_2_1_1_2_0_0.rhsIdx (ix3 b r c) ((ValueIdx.contrEquiv1 dot_S2x256x1024_S2x1024x1024_S2x256x1024_2_1_1_2_0_0 1024 rfl rfl).symm k) = ix3 b k c := funext fun a => Fin.ext (by
    match a with
    | ⟨0, _⟩ => exact rhs_0 _ _
    | ⟨1, _⟩ => exact (rhs_1 _ _).trans hk
    | ⟨2, _⟩ => exact rhs_2 _ _)
  rw [el, er]

/-! ## The stored value at an index -/

/-- THE BODY'S STORED VALUE at `(b, r, c)`, over the loaded blocks: log-variances `lv`, means `mu`, weight noise `eps`,
    bias log-variances `blv`, bias means `bmu`, bias noise `beps`, inputs `x`. -/
theorem payload_apply (lv mu : Vec Ideal S1024x1024 .f32) (eps : Vec Ideal S2x1024x1024 .f32)
    (blv bmu : Vec Ideal S1024 .f32) (beps : Vec Ideal S2x1x1024 .f32) (x : Vec Ideal S2x256x1024 .f32)
    (b : Fin 2) (r : Fin 256) (c : Fin 1024) :
    k0_pay1 (F := Ideal) lv mu eps blv bmu beps x (ix3 b r c)
      = (∑ k : Fin 1024, x (ix3 b r k) * (mu (ix2 k c) + Ideal.exp (half * lv (ix2 k c)) * eps (ix3 b k c)))
        + (bmu (ix1 c) + Ideal.exp (half * blv (ix1 c)) * beps (ix3 b (0 : Fin 1) c)) := by
  unfold k0_pay1
  refine (addf_apply _ _ _).trans (congrArg₂ (· + ·) ?_ ?_)
  · refine (product_apply _ _ b r c).trans (Finset.sum_congr rfl fun k _ => congrArg (x (ix3 b r k) * ·) ?_)
    refine (addf_apply _ _ _).trans (congrArg₂ (· + ·) ?_ ?_)
    · refine (broadcastTo_1bc_abc_apply _ _ b k c).trans ?_
      exact shapeCast_ab_1ab_apply mu _ 0 k c
    · refine (mulf_apply _ _ _).trans (congrArg (· * eps (ix3 b k c)) ?_)
      refine (broadcastTo_1bc_abc_apply _ _ b k c).trans ?_
      refine (shapeCast_ab_1ab_apply _ _ 0 k c).trans ?_
      rfl
  · refine (broadcastTo_a1c_abc_apply _ _ b r c).trans ?_
    refine (addf_apply _ _ _).trans (congrArg₂ (· + ·) ?_ ?_)
    · refine (broadcastTo_1bc_abc_apply _ _ b 0 c).trans ?_
      exact shapeCast_a_11a_apply bmu _ 0 0 c
    · refine (mulf_apply _ _ _).trans (congrArg₂ (· * ·) ?_ ?_)
      · refine (broadcastTo_1bc_abc_apply _ _ b 0 c).trans ?_
        refine (shapeCast_a_11a_apply _ _ 0 0 c).trans ?_
        rfl
      · exact congrFun (shapeCast_self beps _) _

end Cert.SampledLayer.Body

end
-- ==== Proof.KernelValue.lean ====
/-
  The kernel's result array is the sampled layer.

  The grid has 32 points; point `t` handles samples `2t` and `2t + 1`. Its blocks of the inputs, of the weight noise
  and of the bias noise are those two samples' slices; the means and log-variances are whole at every point. By the
  body's stored value at an element, what point `t` writes back is the layer's value at samples `2t, 2t + 1`: block `t`
  of the layer's result array. The 32 blocks tile the array along the sample axis, so the array ends holding the layer.
  (The bias noise reaches the kernel reshaped to `[64, 1, 1024]`; an element `(s, 0, o)` of that is `(s, o)` of the
  argument.)
-/
import proofs.«171357_j37752762532123_2_alg».proof.Proof.Gen.KernelIdeal.Value
import proofs.«171357_j37752762532123_2_alg».proof.Proof.Payload
import Idealize.ShloMosaic.Lib.StableHlo.Run

noncomputable section

open scoped BigOperators

open Idealize.ShloMosaic Idealize.ShloMosaic.TcCoe Idealize.SL.Sem Idealize.ShloMosaic.StableHlo
open Idealize.ShloMosaic.Pipeline (Dat)

namespace Cert.SampledLayer.Kernel

open Cert.KernelIdeal Cert.KernelIdeal.Gen Cert.KernelIdeal.Value Idealize.ShloMosaic.ValueIdx Cert.SampledLayer

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The block indices over the grid -/

/-- Point `t`'s blocks: the per-sample windows (inputs, weight noise, bias noise, result) sit at block `t` along
    the sample axis and at block 0 on the other axes; the shared windows are at block 0. Decided over the 32 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ win0_4.index t (0 : Fin 1) = 0
    ∧ win0_5.index t (0 : Fin 1) = 0
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

/-! ## The windows' blocks as slices of the arguments -/

/-- The inputs' block at point `t`: samples `2t` and `2t + 1`. -/
theorem x_block (c : Dev nD) (t : Fin cfg0.N) (j : S2x256x1024.Idx) (i : S64x256x1024.Idx)
    (h0 : (i 0).val = 2 * t.val + (j 0).val) (h1 : (i 1).val = (j 1).val) (h2 : (i 2).val = (j 2).val) :
    (iblk m c 0 t : Vec Ideal S2x256x1024 .f32) j = (m ((c : Thread nD τ).loc main_arg0) : S64x256x1024.Idx → EReal) i := by
  obtain ⟨⟨e0, e1, e2⟩, -⟩ := idx_facts t
  show V m c main_arg0 (((cfg0.win 0).blk t).view.emb j) = _
  rw [V_main_arg0]
  refine congrArg (m ((c : Thread nD τ).loc main_arg0) : S64x256x1024.Idx → EReal) (funext fun a => Fin.ext ?_)
  match a with
  | ⟨0, _⟩ => show win0_0.index t (0 : Fin 3) * 2 + 1 * (j 0).val = (i 0).val; omega
  | ⟨1, _⟩ => show win0_0.index t (1 : Fin 3) * 256 + 1 * (j 1).val = (i 1).val; omega
  | ⟨2, _⟩ => show win0_0.index t (2 : Fin 3) * 1024 + 1 * (j 2).val = (i 2).val; omega

/-- The weight noise's block at point `t`: samples `2t` and `2t + 1`. -/
theorem eps_block (c : Dev nD) (t : Fin cfg0.N) (j : S2x1024x1024.Idx) (i : S64x1024x1024.Idx)
    (h0 : (i 0).val = 2 * t.val + (j 0).val) (h1 : (i 1).val = (j 1).val) (h2 : (i 2).val = (j 2).val) :
    (iblk m c 3 t : Vec Ideal S2x1024x1024 .f32) j = (m ((c : Thread nD τ).loc main_arg5) : S64x1024x1024.Idx → EReal) i := by
  obtain ⟨-, -, -, ⟨e0, e1, e2⟩, -⟩ := idx_facts t
  show V m c main_arg5 (((cfg0.win 3).blk t).view.emb j) = _
  rw [V_main_arg5]
  refine congrArg (m ((c : Thread nD τ).loc main_arg5) : S64x1024x1024.Idx → EReal) (funext fun a => Fin.ext ?_)
  match a with
  | ⟨0, _⟩ => show win0_3.index t (0 : Fin 3) * 2 + 1 * (j 0).val = (i 0).val; omega
  | ⟨1, _⟩ => show win0_3.index t (1 : Fin 3) * 1024 + 1 * (j 1).val = (i 1).val; omega
  | ⟨2, _⟩ => show win0_3.index t (2 : Fin 3) * 1024 + 1 * (j 2).val = (i 2).val; omega

/-- The weight means' block is the whole array at every point. -/
theorem mu_block (c : Dev nD) (t : Fin cfg0.N) :
    (iblk m c 1 t : Vec Ideal S1024x1024 .f32) = (m ((c : Thread nD τ).loc main_arg1) : S1024x1024.Idx → EReal) := by
  obtain ⟨-, ⟨e0, e1⟩, -⟩ := idx_facts t
  funext j
  show V m c main_arg1 (((cfg0.win 1).blk t).view.emb j) = _
  rw [V_main_arg1]
  refine congrArg (m ((c : Thread nD τ).loc main_arg1) : S1024x1024.Idx → EReal) (funext fun a => Fin.ext ?_)
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The weight log-variances' block is the whole array at every point. -/
theorem lv_block (c : Dev nD) (t : Fin cfg0.N) :
    (iblk m c 2 t : Vec Ideal S1024x1024 .f32) = (m ((c : Thread nD τ).loc main_arg2) : S1024x1024.Idx → EReal) := by
  obtain ⟨-, -, ⟨e0, e1⟩, -⟩ := idx_facts t
  funext j
  show V m c main_arg2 (((cfg0.win 2).blk t).view.emb j) = _
  rw [V_main_arg2]
  refine congrArg (m ((c : Thread nD τ).loc main_arg2) : S1024x1024.Idx → EReal) (funext fun a => Fin.ext ?_)
  match a with
  | ⟨0, _⟩ => show win0_2.index t (0 : Fin 2) * 1024 + 1 * (j 0).val = (j 0).val; omega
  | ⟨1, _⟩ => show win0_2.index t (1 : Fin 2) * 1024 + 1 * (j 1).val = (j 1).val; omega

/-- The bias means' block is the whole array at every point. -/
theorem bmu_block (c : Dev nD) (t : Fin cfg0.N) :
    (iblk m c 4 t : Vec Ideal S1024 .f32) = (m ((c : Thread nD τ).loc main_arg3) : S1024.Idx → EReal) := by
  obtain ⟨-, -, -, -, e0, -⟩ := idx_facts t
  funext j
  show V m c main_arg3 (((cfg0.win 4).blk t).view.emb j) = _
  rw [V_main_arg3]
  refine congrArg (m ((c : Thread nD τ).loc main_arg3) : S1024.Idx → EReal) (funext fun a => Fin.ext ?_)
  match a with
  | ⟨0, _⟩ => show win0_4.index t (0 : Fin 1) * 1024 + 1 * (j 0).val = (j 0).val; omega

/-- The bias log-variances' block is the whole array at every point. -/
theorem blv_block (c : Dev nD) (t : Fin cfg0.N) :
    (iblk m c 5 t : Vec Ideal S1024 .f32) = (m ((c : Thread nD τ).loc main_arg4) : S1024.Idx → EReal) := by
  obtain ⟨-, -, -, -, -, e0, -⟩ := idx_facts t
  funext j
  show V m c main_arg4 (((cfg0.win 5).blk t).view.emb j) = _
  rw [V_main_arg4]
  refine congrArg (m ((c : Thread nD τ).loc main_arg4) : S1024.Idx → EReal) (funext fun a => Fin.ext ?_)
  match a with
  | ⟨0, _⟩ => show win0_5.index t (0 : Fin 1) * 1024 + 1 * (j 0).val = (j 0).val; omega

/-- The array the bias-noise window stages is the argument reshaped to `[64, 1, 1024]`. -/
theorem V_beps (c : Dev nD) :
    (V m c main_v0 : S64x1x1024.Idx → EReal)
      = shapeCast S64x1x1024 (m ((c : Thread nD τ).loc main_arg6) : S64x1024.Idx → EReal) shapeCasts_S64x1024_S64x1x1024 := by
  dsimp only [V, hostOps0]; after_results; rfl

/-- The bias noise's block at point `t`: samples `2t` and `2t + 1` of the argument. -/
theorem beps_block (c : Dev nD) (t : Fin cfg0.N) (j : S2x1x1024.Idx) (i : S64x1024.Idx)
    (h0 : (i 0).val = 2 * t.val + (j 0).val) (h1 : (i 1).val = (j 2).val) :
    (iblk m c 6 t : Vec Ideal S2x1x1024 .f32) j = (m ((c : Thread nD τ).loc main_arg6) : S64x1024.Idx → EReal) i := by
  obtain ⟨-, -, -, -, -, -, ⟨e0, e1, e2⟩, -⟩ := idx_facts t
  show V m c main_v0 (((cfg0.win 6).blk t).view.emb j) = _
  rw [V_beps m c]
  refine shapeCast_apply _ _ _ i ?_
  rw [Shape.rowMajor_val_three, Shape.rowMajor_val_two]
  have hj1 : (j 1).val < 1 := (j 1).isLt
  show (i 0).val * 1024 + (i 1).val
    = ((win0_6.index t (0 : Fin 3) * 2 + 1 * (j 0).val) * 1 + (win0_6.index t (1 : Fin 3) * 1 + 1 * (j 1).val)) * 1024
      + (win0_6.index t (2 : Fin 3) * 1024 + 1 * (j 2).val)
  omega

/-! ## What a point writes back -/

/-- What the body leaves in the result's staging buffer is its stored value over the loaded blocks: one store and
    seven loads, each through its whole buffer. -/
theorem stored_eq (x0 : Vec Ideal S2x256x1024 .f32) (x1 x2 : Vec Ideal S1024x1024 .f32) (x3 : Vec Ideal S2x1024x1024 .f32)
    (x4 x5 : Vec Ideal S1024 .f32) (x6 : Vec Ideal S2x1x1024 .f32) :
    out0_7 x0 x1 x2 x3 x4 x5 x6 = k0_pay1 x2 x1 x3 x5 x4 x6 x0 := by
  unfold out0_7
  rw [View.canon_unit_zero hz3]
  simp only [View.ld_unit_zero (S := S1024x1024) hz2, View.ld_unit_zero (S := S2x1024x1024) hz3,
    View.ld_unit_zero (S := S1024) hz1, View.ld_unit_zero (S := S2x1x1024) hz3, View.ld_unit_zero (S := S2x256x1024) hz3]

/-- The layer of the argument arrays as the program was launched with them. -/
abbrev result (c : Dev nD) : S64x256x1024.Idx → EReal :=
  layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Element `j` of what the body leaves at point `t` is the layer at sample `2t + j₀`, row `j₁`, column `j₂`. -/
theorem point_value (c : Dev nD) (t : Fin cfg0.N) (j : S2x256x1024.Idx) (i : S64x256x1024.Idx)
    (h0 : (i 0).val = 2 * t.val + (j 0).val) (h1 : (i 1).val = (j 1).val) (h2 : (i 2).val = (j 2).val) :
    out0_7 (iblk m c 0 t) (iblk m c 1 t) (iblk m c 2 t) (iblk m c 3 t) (iblk m c 4 t) (iblk m c 5 t) (iblk m c 6 t) j
      = result m c i := by
  obtain ⟨b, r, o, rfl⟩ : ∃ (b : Fin 2) (r : Fin 256) (o : Fin 1024), j = ix3 b r o := ⟨j 0, j 1, j 2, eq_ix3 j⟩
  obtain ⟨s, r', o', rfl⟩ : ∃ (s : Fin 64) (r' : Fin 256) (o' : Fin 1024), i = ix3 s r' o' := ⟨i 0, i 1, i 2, eq_ix3 i⟩
  obtain rfl : r' = r := Fin.ext h1
  obtain rfl : o' = o := Fin.ext h2
  refine (congrFun (stored_eq _ _ _ _ _ _ _) _).trans ?_
  refine (Body.payload_apply _ _ _ _ _ _ _ b r' o').trans ?_
  show _ = layerAt _ _ _ _ _ _ _ s r' o'
  unfold layerAt weightAt biasAt
  rw [mu_block m c t, lv_block m c t, bmu_block m c t, blv_block m c t]
  refine congrArg₂ (· + ·) (Finset.sum_congr rfl fun k _ => ?_) ?_
  · rw [x_block m c t (ix3 b r' k) (ix3 s r' k) h0 rfl rfl, eps_block m c t (ix3 b k o') (ix3 s k o') h0 rfl rfl]
  · rw [beps_block m c t (ix3 b (0 : Fin 1) o') (ix2 s o') h0 rfl]

/-- WHAT POINT `t` WRITES BACK is block `t` of the layer's result array. -/
theorem flushed_eq (c : Dev nD) (t : Fin cfg0.N) :
    (dats m 0 c).flushed 7 t = ((cfg0.win 7).blk t).view.read (Elt Ideal) (result m c) := by
  obtain ⟨-, -, -, -, -, -, -, ⟨e0, e1, e2⟩⟩ := idx_facts t
  rw [flushed7]
  funext y
  rw [View.read_apply]
  refine point_value m c t _ _ ?_ ?_ ?_
  · show win0_7.index t (0 : Fin 3) * 2 + 1 * (y 0).val = 2 * t.val + (y 0).val; omega
  · show win0_7.index t (1 : Fin 3) * 256 + 1 * (y 1).val = (y 1).val; omega
  · show win0_7.index t (2 : Fin 3) * 1024 + 1 * (y 2).val = (y 2).val; omega

/-! ## The blocks tile the array -/

/-- An index of the result array is in point `t`'s block iff each coordinate is in the block's range on its axis. -/
theorem mem_blk (t : Fin cfg0.N) (i : S64x256x1024.Idx) :
    i ∈ ((cfg0.win 7).blk t).view.set ↔ ∀ a : Fin 3, win0_7.index t a * S2x256x1024.size a ≤ (i a).val ∧ (i a).val < win0_7.index t a * S2x256x1024.size a + S2x256x1024.size a := by
  show i ∈ ((View.whole main_v1).slice (win0_7.rect t)).set ↔ _
  rw [View.set_slice_whole, Rect.mem_set_unit]
  exact Iff.rfl

/-- Every index of the result array is in the block of the point that handles its sample: point `s / 2`. -/
theorem cover (i : S64x256x1024.Idx) :
    ∃ t : Fin cfg0.N, (cfg0.win 7).flush t = true ∧ i ∈ ((cfg0.win 7).blk t).view.set := by
  have hi0 : (i 0).val < 64 := (i 0).isLt
  have hi1 : (i 1).val < 256 := (i 1).isLt
  have hi2 : (i 2).val < 1024 := (i 2).isLt
  have hlt : (i 0).val / 2 < cfg0.N := lt_of_lt_of_eq (by omega : (i 0).val / 2 < 32) N_0.symm
  obtain ⟨-, -, -, -, -, -, -, ⟨e0, e1, e2⟩⟩ := idx_facts ⟨(i 0).val / 2, hlt⟩
  have e0' : win0_7.index ⟨(i 0).val / 2, hlt⟩ (0 : Fin 3) = (i 0).val / 2 := e0
  refine ⟨⟨(i 0).val / 2, hlt⟩, flush0_7 _, ?_⟩
  rw [mem_blk]
  intro a
  match a with
  | ⟨0, _⟩ =>
    show win0_7.index ⟨(i 0).val / 2, hlt⟩ (0 : Fin 3) * 2 ≤ (i 0).val ∧ (i 0).val < win0_7.index ⟨(i 0).val / 2, hlt⟩ (0 : Fin 3) * 2 + 2
    omega
  | ⟨1, _⟩ =>
    show win0_7.index ⟨(i 0).val / 2, hlt⟩ (1 : Fin 3) * 256 ≤ (i 1).val ∧ (i 1).val < win0_7.index ⟨(i 0).val / 2, hlt⟩ (1 : Fin 3) * 256 + 256
    omega
  | ⟨2, _⟩ =>
    show win0_7.index ⟨(i 0).val / 2, hlt⟩ (2 : Fin 3) * 1024 ≤ (i 2).val ∧ (i 2).val < win0_7.index ⟨(i 0).val / 2, hlt⟩ (2 : Fin 3) * 1024 + 1024
    omega

/-- THE RESULT ARRAY after the run is the layer of the arguments. -/
theorem final (c : Dev nD) : (dats m 0 c).arrAt 7 cfg0.N = result m c :=
  (dats m 0 c).arrAt_eq_of_cover 7 (result m c) (fun t _ => flushed_eq m c t) cover

/-! ## The run, read -/

/-- Every weakly fair execution of the kernel's program terminates with the result array at the layer of the
    arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.SampledLayer.Kernel

end
-- ==== Proof.RefValue.lean ====
/-
  The reference computes the sampled layer.

  Its last operation adds the batched product of the inputs with the sampled weights to the sampled bias broadcast
  over the rows. Read at sample `s`, row `r`, column `o`: the product is the sum over `k` of `x[s, r, k]` times the
  weight at `(s, k, o)`, each broadcast reads its operand at the coordinates it keeps, and the host's exponential is the
  extended reals' — so the result is the layer's value there, term for term.
-/
import proofs.«171357_j37752762532123_2_alg».proof.Proof.Gen.ReferenceIdeal.Read
import proofs.«171357_j37752762532123_2_alg».proof.Proof.Spec

noncomputable section

open scoped BigOperators

namespace Cert.SampledLayer.Reference

open Cert.ReferenceIdeal Cert.ReferenceIdeal.Read Idealize.ShloMosaic Idealize.ShloMosaic.ValueIdx Cert.SampledLayer

/-- The left operand of the product at contraction position `k`: the input at `(s, r, k)`. -/
theorem lidx_eq (s : Fin 64) (r : Fin 256) (o k : Fin 1024) :
    lidx_main_v18 (ix3 s r o) k = ix3 s r k :=
  funext fun a => Fin.ext (by match a with | ⟨0, _⟩ => rfl | ⟨1, _⟩ => rfl | ⟨2, _⟩ => rfl)

/-- The mean's index under the two broadcasts that lead it to the product's right operand: `(k, o)`. -/
theorem wmu_idx_eq (s : Fin 64) (r : Fin 256) (o k : Fin 1024) :
    idx_main_v6 (idx_main_v10 (ridx_main_v18 (ix3 s r o) k)) = ix2 k o :=
  funext fun a => Fin.ext (by match a with | ⟨0, _⟩ => rfl | ⟨1, _⟩ => rfl)

/-- The log-variance's index under its two broadcasts: `(k, o)`. -/
theorem wlv_idx_eq (s : Fin 64) (r : Fin 256) (o k : Fin 1024) :
    idx_main_v7 (idx_main_v8 (ridx_main_v18 (ix3 s r o) k)) = ix2 k o :=
  funext fun a => Fin.ext (by match a with | ⟨0, _⟩ => rfl | ⟨1, _⟩ => rfl)

/-- The weight noise is read at the right operand's own index, `(s, k, o)`. -/
theorem ridx_eq (s : Fin 64) (r : Fin 256) (o k : Fin 1024) :
    ridx_main_v18 (ix3 s r o) k = ix3 s k o :=
  funext fun a => Fin.ext (by match a with | ⟨0, _⟩ => rfl | ⟨1, _⟩ => rfl | ⟨2, _⟩ => rfl)

/-- The bias noise's index under the two broadcasts over the rows: `(s, o)`. -/
theorem beps_idx_eq (s : Fin 64) (r : Fin 256) (o : Fin 1024) :
    idx_main_v19 (idx_main_v20 (ix3 s r o)) = ix2 s o :=
  funext fun a => Fin.ext (by match a with | ⟨0, _⟩ => rfl | ⟨1, _⟩ => rfl)

/-- The bias mean's index under its broadcasts: `o`. -/
theorem bmu_idx_eq (s : Fin 64) (o : Fin 1024) :
    idx_main_v12 (idx_main_v16 (ix2 s o)) = ix1 o :=
  funext fun a => Fin.ext (by match a with | ⟨0, _⟩ => rfl)

/-- The bias log-variance's index under its broadcasts: `o`. -/
theorem blv_idx_eq (s : Fin 64) (o : Fin 1024) :
    idx_main_v13 (idx_main_v14 (ix2 s o)) = ix1 o :=
  funext fun a => Fin.ext (by match a with | ⟨0, _⟩ => rfl)

/-- The sampled weight as the reference computes it, at the product's right-operand index. -/
theorem weight_apply (x1 x2 : S1024x1024.Idx → EReal) (x5 : S64x1024x1024.Idx → EReal)
    (s : Fin 64) (r : Fin 256) (o k : Fin 1024) :
    val_main_v11 (F := Ideal) x1 x2 x5 (ridx_main_v18 (ix3 s r o) k) = weightAt x1 x2 x5 s k o := by
  rw [val_main_v11_apply, val_main_v10_apply, val_main_v6_apply, val_main_v9_apply, val_main_v8_apply,
    val_main_v7_apply, val_main_v2_apply, val_main_v1_apply, val_main_v0_apply, val_main_cst_apply,
    wmu_idx_eq, wlv_idx_eq, ridx_eq]
  rfl

/-- The sampled bias as the reference computes it and broadcasts it over the rows. -/
theorem bias_apply (x3 x4 : S1024.Idx → EReal) (x6 : S64x1024.Idx → EReal) (s : Fin 64) (r : Fin 256) (o : Fin 1024) :
    val_main_v20 (F := Ideal) x3 x4 x6 (ix3 s r o) = biasAt x3 x4 x6 s o := by
  rw [val_main_v20_apply, val_main_v19_apply, beps_idx_eq, val_main_v17_apply, val_main_v16_apply, val_main_v12_apply,
    val_main_v15_apply, val_main_v14_apply, val_main_v13_apply, val_main_v5_apply, val_main_v4_apply,
    val_main_v3_apply, val_main_cst_0_apply, bmu_idx_eq, blv_idx_eq]
  rfl

/-- THE REFERENCE'S RESULT is the sampled layer of its arguments. -/
theorem result_eq (x0 : S64x256x1024.Idx → EReal) (x1 x2 : S1024x1024.Idx → EReal) (x3 x4 : S1024.Idx → EReal)
    (x5 : S64x1024x1024.Idx → EReal) (x6 : S64x1024.Idx → EReal) :
    val_main_v21 (F := Ideal) x0 x1 x2 x3 x4 x5 x6 = layer x0 x1 x2 x3 x4 x5 x6 := by
  funext i
  obtain ⟨s, r, o, rfl⟩ : ∃ (s : Fin 64) (r : Fin 256) (o : Fin 1024), i = ix3 s r o := ⟨i 0, i 1, i 2, eq_ix3 i⟩
  rw [val_main_v21_apply, val_main_v18_apply, bias_apply, layer_ix3]
  unfold layerAt
  refine congrArg (· + biasAt x3 x4 x6 s o) (Finset.sum_congr rfl fun k _ => ?_)
  rw [weight_apply, lidx_eq]

end Cert.SampledLayer.Reference

end
-- ==== Proof.lean ====
/-
  The sampled linear layer: a kernel against its reference, equal over the extended reals.

  Both programs compute, for sample `s`, row `r`, column `o`,
      Σ_k x[s, r, k] · (μ[k, o] + exp(½ · λ[k, o]) · ε[s, k, o])  +  (β[o] + exp(½ · γ[o]) · δ[s, o])
  (Proof/Spec.lean). The reference does so in one batched product over all 64 samples (Proof/RefValue.lean). The kernel
  walks 32 grid points of two samples each, forming the two samples' weights and biases inside the body and multiplying
  in one batched product per point (Proof/Payload.lean); its 32 result blocks tile the result array
  (Proof/KernelValue.lean). The two results are the same function of the arguments term for term — the same operations
  in the same order at every element, the sums over the same index —, so no law of arithmetic is used and the
  finiteness of the inputs is never needed. The idealization rewrote nothing, so it preserves the kernel trivially.
-/
import proofs.«171357_j37752762532123_2_alg».proof.Defs
import proofs.«171357_j37752762532123_2_alg».proof.Proof.Gen.Kernel
import proofs.«171357_j37752762532123_2_alg».proof.Proof.Gen.Kernel.Skeleton
import proofs.«171357_j37752762532123_2_alg».proof.Proof.Gen.Kernel.Launch
import proofs.«171357_j37752762532123_2_alg».proof.Proof.Gen.Kernel.Points
import proofs.«171357_j37752762532123_2_alg».proof.Proof.Gen.Kernel.Frame
import proofs.«171357_j37752762532123_2_alg».proof.Proof.Gen.KernelIdeal
import proofs.«171357_j37752762532123_2_alg».proof.Proof.Gen.KernelIdeal.Skeleton
import proofs.«171357_j37752762532123_2_alg».proof.Proof.Gen.KernelIdeal.Launch
import proofs.«171357_j37752762532123_2_alg».proof.Proof.Gen.KernelIdeal.Points
import proofs.«171357_j37752762532123_2_alg».proof.Proof.Gen.KernelIdeal.Frame
import proofs.«171357_j37752762532123_2_alg».proof.Proof.Gen.ReferenceIdeal
import proofs.«171357_j37752762532123_2_alg».proof.Proof.Gen.Pre_finite_inputs
import proofs.«171357_j37752762532123_2_alg».proof.Proof.KernelValue
import proofs.«171357_j37752762532123_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the sampled layer of those arguments. -/
theorem algebraic : Cert.algebraic_KernelIdeal_ReferenceIdeal := by
  intro m ρ m' ρ' _ hagree
  refine ⟨fun c => Cert.SampledLayer.Kernel.result m c, Cert.SampledLayer.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v21_eq, Cert.SampledLayer.Reference.result_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
